-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S3200000x1 : Shape := ⟨2, ![3200000, 1]⟩
abbrev S1x1 : Shape := ⟨2, ![1, 1]⟩

abbrev nBuf : Space → Nat
  | .hbm => 95
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x1, .f32⟩
  | .hbm, ⟨77, _⟩ => ⟨S3300000x1, .f32⟩
  | .hbm, ⟨78, _⟩ => ⟨S3300000x1, .f32⟩
  | .hbm, ⟨79, _⟩ => ⟨S_, .f32⟩
  | .hbm, ⟨80, _⟩ => ⟨S100000x1, .f32⟩
  | .hbm, ⟨81, _⟩ => ⟨S3300000x1, .i32⟩
  | .hbm, ⟨82, _⟩ => ⟨S100000x1, .f32⟩
  | .hbm, ⟨83, _⟩ => ⟨S_, .f32⟩
  | .hbm, ⟨84, _⟩ => ⟨S100000, .f32⟩
  | .hbm, ⟨85, _⟩ => ⟨S3200000x1, .i32⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S1x1, .f32⟩
  | .hbm, ⟨92, _⟩ => ⟨S100000x1, .f32⟩
  | .hbm, ⟨93, _⟩ => ⟨S100000x1, .f32⟩
  | .hbm, ⟨94, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  reducesTo_S100000_S_d0 : S100000.ReducesTo [0] S_
  h_S_ : 0 < S_.numel
  shapeCasts_S1_S1x1 : S1.ShapeCasts S1x1
  shapeCasts_S100000_S100000x1 : S100000.ShapeCasts S100000x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩
abbrev S3200000x1 : Shape := ⟨2, ![3200000, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S1x3200000, .i32⟩
  | 8 => ⟨S3200000, .i32⟩
  | 9 => ⟨S1x3200000, .i32⟩
  | 10 => ⟨S3200000, .i32⟩
  | 11 => ⟨S100000x64, .f32⟩
  | 12 => ⟨S100000, .i32⟩
  | 13 => ⟨S3300000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x1, .f32⟩
  | 73 => ⟨S100000, .i32⟩
  | 74 => ⟨S3300000, .i32⟩
  | 75 => ⟨S3300000, .i32⟩
  | 76 => ⟨S_, .f32⟩
  | 77 => ⟨S100000, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x1, .f32⟩
  | 120 => ⟨S3300000x1, .f32⟩
  | 121 => ⟨S3300000x1, .f32⟩
  | 122 => ⟨S_, .f32⟩
  | 123 => ⟨S100000x1, .f32⟩
  | 124 => ⟨S3300000x1, .i32⟩
  | 125 => ⟨S100000x1, .f32⟩
  | 126 => ⟨S1x1, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S_, .f32⟩
  | 7 => ⟨S100000x1, .f32⟩
  | 8 => ⟨S100000x1, .f32⟩
  | 9 => ⟨S100000, .f32⟩
  | 10 => ⟨S_, .f32⟩
  | 11 => ⟨S100000, .f32⟩
  | 12 => ⟨S3200000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .f32⟩
  | 21 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S3200000_S3200000x1_0 : S3200000.BroadcastsInDim S3200000x1 (![0] : Fin 1 → Fin S3200000x1.rank)
  reducesTo_S100000_S_d0 : S100000.ReducesTo [0] S_
  h_S_ : 0 < S_.numel
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  scatter_S100000_S3200000x1_S3200000_n_0_0_1_wf : ScatterDims.WF S100000 S3200000x1 S3200000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.KernelRun.lean ====
/-
  The kernel program's run with its result named.

  The program is three launches among stretches of host operations. Running the segments in order from the launch memory,
  every buffer outside the launches' scopes ends holding the last boundary's contents: the fold of the host stretches'
  results and the launches' write-backs through the program. The result buffer is one of these buffers, and the argument
  buffers are never written, so they end as they were launched.
-/
import proofs.«157544_j3994319585551_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters ends with the result buffer at the last
    boundary's contents and the seven argument buffers as launched. -/
theorem run : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.Stages.lean ====
/-
  The host-side stages both programs share, each as one function of its operands.

  From the edge list (two rows of node numbers) and the edge weights: the source and target columns with one self loop
  per node appended, the weights with a one per self loop appended, the weighted in-degree of every node (a segment
  sum of the weights by target), its inverse square root where the degree is positive and zero elsewhere, the
  symmetric normalisation of every edge, the aggregation of the rows of a feature matrix over the edges (gather the
  source's row, scale it by the edge's normalisation, segment-sum by target), and the weighted out-degree of every node
  over the original edges divided by its maximum.
-/
import proofs.«157544_j3994319585551_1_alg».proof.Proof.Gen.KernelIdeal

noncomputable section

namespace Cert.Gcn

open Cert.KernelIdeal Cert.KernelIdeal.Facts₀ Idealize.ShloMosaic

variable {F : FTy → Type} [FloatOps F]

/-- The edges' source nodes: row 0 of the edge list. -/
def src (e : (⟨S2x3200000, .i32⟩ : BufTy).Contents (Elt F)) : (⟨S3200000, .i32⟩ : BufTy).Contents (Elt F) :=
  shapeCast S3200000 (extractStridedSlice S1x3200000 ![0, 0] e slices_S2x3200000_S1x3200000_0_0) shapeCasts_S1x3200000_S3200000

/-- The edges' target nodes: row 1 of the edge list. -/
def dst (e : (⟨S2x3200000, .i32⟩ : BufTy).Contents (Elt F)) : (⟨S3200000, .i32⟩ : BufTy).Contents (Elt F) :=
  shapeCast S3200000 (extractStridedSlice S1x3200000 ![1, 0] e slices_S2x3200000_S1x3200000_1_0) shapeCasts_S1x3200000_S3200000

/-- A column of node numbers with the self loops' 0 … 99999 appended. -/
def withLoops (v : (⟨S3200000, .i32⟩ : BufTy).Contents (Elt F)) : (⟨S3300000, .i32⟩ : BufTy).Contents (Elt F) :=
  concatenate S3300000 0 [⟨S3200000, v⟩, ⟨S100000, iotaInDim S100000 32 0⟩] concatenates_S3200000_S100000_S3300000_d0

/-- The edge weights with a one per self loop appended. -/
def wts (w : (⟨S3200000, .f32⟩ : BufTy).Contents (Elt F)) : (⟨S3300000, .f32⟩ : BufTy).Contents (Elt F) :=
  concatenate S3300000 0 [⟨S3200000, w⟩, ⟨S100000, broadcastInDim S100000 ![] bcast_S_S100000 (constant S_ .f32 0x3F800000#32)⟩] concatenates_S3200000_S100000_S3300000_d0

/-- A column of node numbers as a one-column index table. -/
def asCol (v : (⟨S3300000, .i32⟩ : BufTy).Contents (Elt F)) : (⟨S3300000x1, .i32⟩ : BufTy).Contents (Elt F) :=
  broadcastInDim S3300000x1 ![0] bcast_S3300000_S3300000x1_0 v

/-- Node numbers with a negative one wrapped around by the node count (the index normalisation of a gather). -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The weighted in-degree of every node, self loops included. -/
def deg (e : (⟨S2x3200000, .i32⟩ : BufTy).Contents (Elt F)) (w : (⟨S3200000, .f32⟩ : BufTy).Contents (Elt F)) :
    (⟨S100000, .f32⟩ : BufTy).Contents (Elt F) :=
  Host.scatterAdd scatter_S100000_S3300000x1_S3300000_n_0_0_1 (broadcastInDim S100000 ![] bcast_S_S100000 (constant S_ .f32 0x00000000#32))
    (asCol (withLoops (dst e))) (wts w)

/-- The inverse square root of the degree where it is positive, zero elsewhere. -/
def dinv (e : (⟨S2x3200000, .i32⟩ : BufTy).Contents (Elt F)) (w : (⟨S3200000, .f32⟩ : BufTy).Contents (Elt F)) :
    (⟨S100000, .f32⟩ : BufTy).Contents (Elt F) :=
  select (cmpf .ogt (deg e w) (broadcastInDim S100000 ![] bcast_S_S100000 (constant S_ .f32 0x00000000#32))) (Host.rsqrt (deg e w))
    (broadcastInDim S100000 ![] bcast_S_S100000 (id (constant S_ .f32 0x00000000#32)))

/-- The normalisation of every edge: dinv(source) · weight · dinv(target). -/
def edgeNorm (e : (⟨S2x3200000, .i32⟩ : BufTy).Contents (Elt F)) (w : (⟨S3200000, .f32⟩ : BufTy).Contents (Elt F)) :
    (⟨S3300000, .f32⟩ : BufTy).Contents (Elt F) :=
  mulf (mulf (Host.gather gather_S100000_S3300000x1_S3300000_n_0_n_n_0_1_1 (dinv e w) (asCol (wrap (withLoops (src e))))) (wts w))
    (Host.gather gather_S100000_S3300000x1_S3300000_n_0_n_n_0_1_1 (dinv e w) (asCol (wrap (withLoops (dst e)))))

/-- The aggregation of a 64-column feature matrix over the edges. -/
def agg64 (h : (⟨S100000x64, .f32⟩ : BufTy).Contents (Elt F)) (e : (⟨S2x3200000, .i32⟩ : BufTy).Contents (Elt F))
    (w : (⟨S3200000, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32))
    (asCol (withLoops (dst e)))
    (mulf (Host.gather gather_S100000x64_S3300000x1_S3300000x64_1_0_n_n_0_1_164 h (asCol (wrap (withLoops (src e)))))
      (broadcastInDim S3300000x64 ![0, 1] bcast_S3300000x1_S3300000x64_0_1 (broadcastInDim S3300000x1 ![0] bcast_S3300000_S3300000x1_0 (edgeNorm e w))))

/-- The aggregation of a one-column feature matrix over the edges. -/
def agg1 (p : (⟨S100000x1, .f32⟩ : BufTy).Contents (Elt F)) (e : (⟨S2x3200000, .i32⟩ : BufTy).Contents (Elt F))
    (w : (⟨S3200000, .f32⟩ : BufTy).Contents (Elt F)) : (⟨S100000x1, .f32⟩ : BufTy).Contents (Elt F) :=
  Host.scatterAdd scatter_S100000x1_S3300000x1_S3300000x1_1_0_0_1 (broadcastInDim S100000x1 ![] bcast_S_S100000x1 (constant S_ .f32 0x00000000#32))
    (asCol (withLoops (dst e)))
    (mulf (Host.gather gather_S100000x1_S3300000x1_S3300000x1_1_0_n_n_0_1_11 p (asCol (wrap (withLoops (src e)))))
      (broadcastInDim S3300000x1 ![0] bcast_S3300000_S3300000x1_0 (edgeNorm e w)))

/-- The weighted out-degree of every node over the original edges. -/
def outDeg (e : (⟨S2x3200000, .i32⟩ : BufTy).Contents (Elt F)) (w : (⟨S3200000, .f32⟩ : BufTy).Contents (Elt F)) :
    (⟨S100000, .f32⟩ : BufTy).Contents (Elt F) :=
  Host.scatterAdd scatter_S100000_S3200000x1_S3200000_n_0_0_1 (broadcastInDim S100000 ![] bcast_S_S100000 (constant S_ .f32 0x00000000#32))
    (broadcastInDim S3200000x1 ![0] bcast_S3200000_S3200000x1_0 (src e)) w

/-- The out-degree divided by its maximum over the nodes. -/
def degNorm (e : (⟨S2x3200000, .i32⟩ : BufTy).Contents (Elt F)) (w : (⟨S3200000, .f32⟩ : BufTy).Contents (Elt F)) :
    (⟨S100000, .f32⟩ : BufTy).Contents (Elt F) :=
  Host.divf (outDeg e w) (broadcastInDim S100000 ![] bcast_S_S100000
    (Host.reduce FloatOps.maximumf (outDeg e w) (constant S_ .f32 0xFF800000#32) reducesTo_S100000_S_d0 h_S_))

end Cert.Gcn

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Region0.lean ====
/-
  The first launch: the projection x · W1, one block of 10000 rows per grid point.

  Point t reads rows 10000·t … 10000·t + 9999 of x and the whole of W1, and writes the product of the two into the same
  rows of the result. A row of a matrix product depends on that row of the left factor only, so the rows point t writes are
  the rows of the whole product x · W1; the ten blocks tile the 100000 rows, so the result array ends holding x · W1.
-/
import proofs.«157544_j3994319585551_1_alg».proof.Proof.Gen.KernelIdeal.Frame
import proofs.«157544_j3994319585551_1_alg».proof.Proof.LibDense
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S10000x128 .f32) (x1 : Vec Ideal S128x64 .f32) :
    k0_pay1 (F := Ideal) x0 x1 = mm (M := 10000) (K := 128) (N := 64) x0 x1 := by
  unfold k0_pay1
  exact matmul_plain_zero (M := 10000) (K := 128) (N := 64) none x0 x1

/-- Where the three windows' blocks sit at point t: x and the result move down by blocks of rows, W1 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 10 := by have := t.isLt; have hN : cfg0.N = 10 := N_0; omega

/-- Row p of x's block at point t is row 10000·t + p of x. -/
theorem xblk_apply (c : Dev nD) (t : Fin cfg0.N) (p : Fin 10000) (k : Fin 128) :
    (iblk0 V c 0 t : Vec Ideal S10000x128 .f32) (ix2 p k)
      = (V c main_arg0 : S100000x128.Idx → EReal) (ix2 ⟨10000 * t.val + p.val, by have := t_lt t; omega⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- W1's block at any point is W1. -/
theorem wblk_eq (c : Dev nD) (t : Fin cfg0.N) :
    (iblk0 V c 1 t : Vec Ideal S128x64 .f32) = (V c main_arg3 : S128x64.Idx → EReal) := by
  obtain ⟨-, -, e2, e3, -⟩ := idx_facts t
  funext j
  unfold iblk0
  rw [View.read_apply]
  show V c main_arg3 _ = V c main_arg3 _
  congr 1
  funext a
  apply Fin.ext
  match a with
  | ⟨0, _⟩ => show win0_1.index t (0 : Fin 2) * 128 + 1 * (j 0).val = (j 0).val; rw [e2]; omega
  | ⟨1, _⟩ => show win0_1.index t (1 : Fin 2) * 64 + 1 * (j 1).val = (j 1).val; rw [e3]; omega

/-- What point t writes back is its block of rows of x · W1. -/
theorem flushed_eq (c : Dev nD) (t : Fin cfg0.N) :
    (dat0 V c).flushed 2 t = ((cfg0.win 2).blk t).view.read (Elt Ideal)
      (mm (M := 100000) (K := 128) (N := 64) (V c main_arg0) (V c main_arg3)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq, wblk_eq]
  funext j
  obtain ⟨p, q, rfl⟩ : ∃ (p : Fin 10000) (q : Fin 64), j = ix2 p q := ⟨j 0, j 1, eq_ix2 j⟩
  rw [View.read_apply]
  show mm (M := 10000) (K := 128) (N := 64) (iblk0 V c 0 t) (V c main_arg3) (ix2 p q) = _
  rw [mm_rows (M' := 100000) (V c main_arg0) (iblk0 V c 0 t) (V c main_arg3)
    (fun p => ⟨10000 * t.val + p.val, by have := t_lt t; omega⟩) (fun p k => xblk_apply V c t p k) p q]
  congr 1
  funext a
  apply Fin.ext
  match a with
  | ⟨0, _⟩ => show 10000 * t.val + p.val = win0_2.index t (0 : Fin 2) * 10000 + 1 * p.val; rw [e4]; omega
  | ⟨1, _⟩ => show q.val = win0_2.index t (1 : Fin 2) * 64 + 1 * q.val; rw [e5]; omega

/-- The result array after the launch is x · W1. -/
theorem final (c : Dev nD) :
    (dat0 V c).arrAt 2 cfg0.N = mm (M := 100000) (K := 128) (N := 64) (V c main_arg0) (V c main_arg3) :=
  (dat0 V c).arrAt_eq_of_cover 2 _ (fun t _ => flushed_eq V c t) fun i => by
    have hi : (i 0).val < 100000 := (i 0).isLt
    have hN : cfg0.N = 10 := N_0
    obtain ⟨t, ht⟩ : ∃ t : Fin cfg0.N, t.val = (i 0).val / 10000 := ⟨⟨(i 0).val / 10000, by omega⟩, rfl⟩
    refine ⟨t, flush0_2 t, ?_⟩
    obtain ⟨-, -, -, -, e6, e7⟩ := idx_facts t
    show i ∈ ((View.whole main_v32).slice (win0_2.rect t)).set
    rw [View.set_slice_whole, Rect.mem_set_unit]
    intro a
    match a with
    | ⟨0, _⟩ =>
      show win0_2.index t (0 : Fin 2) * 10000 ≤ (i 0).val ∧ (i 0).val < win0_2.index t (0 : Fin 2) * 10000 + 10000
      rw [e6, ht]; omega
    | ⟨1, _⟩ =>
      show win0_2.index t (1 : Fin 2) * 64 ≤ (i 1).val ∧ (i 1).val < win0_2.index t (1 : Fin 2) * 64 + 64
      rw [e7]; have h1 : (i 1).val < 64 := (i 1).isLt; omega

end Cert.KernelIdeal.Proj

end
-- ==== Proof.Region1.lean ====
/-
  The second launch: the hidden layer and the second projection, relu(A + b1) · W2, one block of 10000 rows per grid point.

  Point t reads rows 10000·t … 10000·t + 9999 of the aggregated features A, the bias as a one-row matrix and the whole of
  W2; it adds the bias to every row, takes the maximum with zero and multiplies by W2. Entry (r, ·) of the result depends
  on row r of A only, so the rows point t writes are the rows of the same expression of the whole arrays; the ten blocks
  tile the 100000 rows.
-/
import proofs.«157544_j3994319585551_1_alg».proof.Proof.Gen.KernelIdeal.Frame
import proofs.«157544_j3994319585551_1_alg».proof.Proof.LibDense
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- A one-row matrix added to every row. -/
def biased {M N : ℕ} (A : Mat M N) (b : Mat 1 N) : Mat M N := fun i => A i + b (ix2 (0 : Fin 1) (i 1))

/-- The layer: the rectified biased matrix times the weights. -/
def layer {M K N : ℕ} (A : Mat M K) (b : Mat 1 K) (W : Mat K N) : Mat M N := mm (relu (biased A b)) W

/-- The rectified biased rows of a block are those rows of the rectified biased array. -/
theorem relu_biased_rows {M M' N : ℕ} (A : Mat M' N) (blk : Mat M N) (b : Mat 1 N) (ρ : Fin M → Fin M')
    (h : ∀ p k, blk (ix2 p k) = A (ix2 (ρ p) k)) (p : Fin M) (k : Fin N) :
    relu (biased blk b) (ix2 p k) = relu (biased A b) (ix2 (ρ p) k) := by
  show max (blk (ix2 p k) + b (ix2 (0 : Fin 1) k)) 0 = max (A (ix2 (ρ p) k) + b (ix2 (0 : Fin 1) k)) 0
  rw [h]

/-- The body's stored value is the layer of its three loaded blocks. -/
theorem pay_eq (x0 : Vec Ideal S10000x64 .f32) (x1 : Vec Ideal S1x64 .f32) (x2 : Vec Ideal S64x1 .f32) :
    k1_pay1 (F := Ideal) x0 x1 x2 = layer (M := 10000) (K := 64) (N := 1) x0 x1 x2 := by
  unfold k1_pay1 layer
  refine (matmul_plain_zero (M := 10000) (K := 64) (N := 1) none _ _).trans ?_
  congr 1
  funext i
  obtain ⟨p, q, rfl⟩ : ∃ (p : Fin 10000) (q : Fin 64), i = ix2 p q := ⟨i 0, i 1, eq_ix2 i⟩
  show max ((shapeCast S10000x64 x0 shapeCasts_S10000x64_S10000x64 (ix2 p q) : EReal)
      + broadcastTo S10000x64 (shapeCast S1x64 x1 shapeCasts_S1x64_S1x64) broadcasts_S1x64_S10000x64 (ix2 p q))
      (Ideal.ofBits .f32 0x00000000#32) = max ((x0 (ix2 p q) : EReal) + x1 (ix2 (0 : Fin 1) q)) 0
  rw [shapeCast_self, shapeCast_self, broadcastTo_1b_ab_apply, Ideal.ofBits_zero_f32]

/-- Where the four windows' blocks sit at point t: A and the result move down by blocks of rows, the bias and W2 stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 10 := by have := t.isLt; have hN : cfg1.N = 10 := N_1; omega

/-- Row p of A's block at point t is row 10000·t + p of A. -/
theorem ablk_apply (c : Dev nD) (t : Fin cfg1.N) (p : Fin 10000) (k : Fin 64) :
    (iblk1 V c 0 t : Vec Ideal S10000x64 .f32) (ix2 p k)
      = (V c main_v45 : S100000x64.Idx → EReal) (ix2 ⟨10000 * t.val + p.val, by have := t_lt t; omega⟩ k) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * k.val = k.val; rw [e1]; omega

/-- The bias row's block at any point is the bias row. -/
theorem bblk_eq (c : Dev nD) (t : Fin cfg1.N) :
    (iblk1 V c 1 t : Vec Ideal S1x64 .f32) = (V c main_v46 : S1x64.Idx → EReal) := by
  obtain ⟨-, -, e2, e3, -⟩ := idx_facts t
  funext j
  unfold iblk1
  rw [View.read_apply]
  show V c main_v46 _ = V c main_v46 _
  congr 1
  funext a
  apply Fin.ext
  match a with
  | ⟨0, _⟩ => show win1_1.index t (0 : Fin 2) * 1 + 1 * (j 0).val = (j 0).val; rw [e2]; omega
  | ⟨1, _⟩ => show win1_1.index t (1 : Fin 2) * 64 + 1 * (j 1).val = (j 1).val; rw [e3]; omega

/-- W2's block at any point is W2. -/
theorem wblk_eq (c : Dev nD) (t : Fin cfg1.N) :
    (iblk1 V c 2 t : Vec Ideal S64x1 .f32) = (V c main_arg5 : S64x1.Idx → EReal) := by
  obtain ⟨-, -, -, -, e4, e5, -⟩ := idx_facts t
  funext j
  unfold iblk1
  rw [View.read_apply]
  show V c main_arg5 _ = V c main_arg5 _
  congr 1
  funext a
  apply Fin.ext
  match a with
  | ⟨0, _⟩ => show win1_2.index t (0 : Fin 2) * 64 + 1 * (j 0).val = (j 0).val; rw [e4]; omega
  | ⟨1, _⟩ => show win1_2.index t (1 : Fin 2) * 1 + 1 * (j 1).val = (j 1).val; rw [e5]; omega

/-- What point t writes back is its block of rows of the layer of the whole arrays. -/
theorem flushed_eq (c : Dev nD) (t : Fin cfg1.N) :
    (dat1 V c).flushed 3 t = ((cfg1.win 3).blk t).view.read (Elt Ideal)
      (layer (M := 100000) (K := 64) (N := 1) (V c main_v45) (V c main_v46) (V c main_arg5)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x1) hz]
  rw [pay_eq, bblk_eq, wblk_eq]
  funext j
  obtain ⟨p, q, rfl⟩ : ∃ (p : Fin 10000) (q : Fin 1), j = ix2 p q := ⟨j 0, j 1, eq_ix2 j⟩
  rw [View.read_apply]
  show mm (M := 10000) (K := 64) (N := 1) (relu (biased (iblk1 V c 0 t) (V c main_v46))) (V c main_arg5) (ix2 p q) = _
  unfold layer
  rw [mm_rows (M' := 100000) (relu (biased (M := 100000) (N := 64) (V c main_v45) (V c main_v46)))
    (relu (biased (M := 10000) (N := 64) (iblk1 V c 0 t) (V c main_v46))) (V c main_arg5)
    (fun p => ⟨10000 * t.val + p.val, by have := t_lt t; omega⟩)
    (relu_biased_rows (M' := 100000) (V c main_v45) (iblk1 V c 0 t) (V c main_v46) _ (fun p k => ablk_apply V c t p k)) p q]
  congr 1
  funext a
  apply Fin.ext
  match a with
  | ⟨0, _⟩ => show 10000 * t.val + p.val = win1_3.index t (0 : Fin 2) * 10000 + 1 * p.val; rw [e6]; omega
  | ⟨1, _⟩ => show q.val = win1_3.index t (1 : Fin 2) * 1 + 1 * q.val; rw [e7]; omega

/-- The result array after the launch is the layer of the whole arrays. -/
theorem final (c : Dev nD) :
    (dat1 V c).arrAt 3 cfg1.N = layer (M := 100000) (K := 64) (N := 1) (V c main_v45) (V c main_v46) (V c main_arg5) :=
  (dat1 V c).arrAt_eq_of_cover 3 _ (fun t _ => flushed_eq V c t) fun i => by
    have hi : (i 0).val < 100000 := (i 0).isLt
    have hN : cfg1.N = 10 := N_1
    obtain ⟨t, ht⟩ : ∃ t : Fin cfg1.N, t.val = (i 0).val / 10000 := ⟨⟨(i 0).val / 10000, by omega⟩, rfl⟩
    refine ⟨t, flush1_3 t, ?_⟩
    obtain ⟨-, -, -, -, -, -, e6, e7⟩ := idx_facts t
    show i ∈ ((View.whole main_v47).slice (win1_3.rect t)).set
    rw [View.set_slice_whole, Rect.mem_set_unit]
    intro a
    match a with
    | ⟨0, _⟩ =>
      show win1_3.index t (0 : Fin 2) * 10000 ≤ (i 0).val ∧ (i 0).val < win1_3.index t (0 : Fin 2) * 10000 + 10000
      rw [e6, ht]; omega
    | ⟨1, _⟩ =>
      show win1_3.index t (1 : Fin 2) * 1 ≤ (i 1).val ∧ (i 1).val < win1_3.index t (1 : Fin 2) * 1 + 1
      rw [e7]; have h1 : (i 1).val < 1 := (i 1).isLt; omega

end Cert.KernelIdeal.Hidden

end
-- ==== Proof.Region2.lean ====
/-
  The third launch: the score, sigmoid(A + b2) · (1 + d), one block of 10000 rows per grid point.

  Point t reads rows 10000·t … 10000·t + 9999 of the aggregated column A and of the normalised degree column d, and the
  one-entry bias; every entry of its result depends on the same entry of A and d only, so the rows point t writes are the
  rows of the same entrywise expression of the whole columns; the ten blocks tile the 100000 rows.
-/
import proofs.«157544_j3994319585551_1_alg».proof.Proof.Gen.KernelIdeal.Frame
import proofs.«157544_j3994319585551_1_alg».proof.Proof.LibDense
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Score

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The score, entry by entry: the logistic function of the biased entry times one plus the degree entry. -/
def score {M : ℕ} (A : Mat M 1) (b : Mat 1 1) (D : Mat M 1) : Mat M 1 := fun i =>
  FloatOps.mulf (F := Ideal) (φ := .f32) (FloatOps.logistic (FloatOps.addf (A i) (b (ix2 (0 : Fin 1) (i 1)))))
    (FloatOps.addf (Scalar.ofBits (F := Ideal) .f32 0x3F800000#32) (D i))

/-- The score of two blocks of rows is those rows of the score of the whole columns. -/
theorem score_rows {M M' : ℕ} (A D : Mat M' 1) (ablk dblk : Mat M 1) (b : Mat 1 1) (ρ : Fin M → Fin M')
    (ha : ∀ p k, ablk (ix2 p k) = A (ix2 (ρ p) k)) (hd : ∀ p k, dblk (ix2 p k) = D (ix2 (ρ p) k)) (p : Fin M) (q : Fin 1) :
    score ablk b dblk (ix2 p q) = score A b D (ix2 (ρ p) q) := by
  unfold score
  show FloatOps.mulf (F := Ideal) (φ := .f32) (FloatOps.logistic (FloatOps.addf (ablk (ix2 p q)) (b (ix2 (0 : Fin 1) q))))
      (FloatOps.addf (Scalar.ofBits (F := Ideal) .f32 0x3F800000#32) (dblk (ix2 p q)))
    = FloatOps.mulf (F := Ideal) (φ := .f32) (FloatOps.logistic (FloatOps.addf (A (ix2 (ρ p) q)) (b (ix2 (0 : Fin 1) q))))
      (FloatOps.addf (Scalar.ofBits (F := Ideal) .f32 0x3F800000#32) (D (ix2 (ρ p) q)))
  rw [ha, hd]

/-- The body's stored value is the score of its three loaded blocks. -/
theorem pay_eq (x0 : Vec Ideal S10000x1 .f32) (x1 : Vec Ideal S1x1 .f32) (x2 : Vec Ideal S10000x1 .f32) :
    k2_pay1 (F := Ideal) x0 x1 x2 = score (M := 10000) x0 x1 x2 := by
  funext i
  obtain ⟨p, q, rfl⟩ : ∃ (p : Fin 10000) (q : Fin 1), i = ix2 p q := ⟨i 0, i 1, eq_ix2 i⟩
  unfold k2_pay1 score
  show FloatOps.mulf (F := Ideal) (φ := .f32)
      (FloatOps.logistic (FloatOps.addf ((shapeCast S10000x1 x0 shapeCasts_S10000x1_S10000x1 (ix2 p q) : Ideal .f32))
        (broadcastTo S10000x1 (shapeCast S1x1 x1 shapeCasts_S1x1_S1x1) broadcasts_S1x1_S10000x1 (ix2 p q))))
      (FloatOps.addf (Scalar.ofBits (F := Ideal) .f32 0x3F800000#32) (shapeCast S10000x1 x2 shapeCasts_S10000x1_S10000x1 (ix2 p q)))
    = FloatOps.mulf (F := Ideal) (φ := .f32) (FloatOps.logistic (FloatOps.addf (x0 (ix2 p q)) (x1 (ix2 (0 : Fin 1) q))))
      (FloatOps.addf (Scalar.ofBits (F := Ideal) .f32 0x3F800000#32) (x2 (ix2 p q)))
  rw [shapeCast_self, shapeCast_self, shapeCast_self, broadcastTo_1b_ab_apply]

/-- Where the four windows' blocks sit at point t: the two columns and the result move down by blocks of rows, the bias stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 10 := by have := t.isLt; have hN : cfg2.N = 10 := N_2; omega

/-- Row p of A's block at point t is row 10000·t + p of A. -/
theorem ablk_apply (c : Dev nD) (t : Fin cfg2.N) (p : Fin 10000) (k : Fin 1) :
    (iblk2 V c 0 t : Vec Ideal S10000x1 .f32) (ix2 p k)
      = (V c main_v59 : S100000x1.Idx → EReal) (ix2 ⟨10000 * t.val + p.val, by have := t_lt t; omega⟩ k) := by
  obtain ⟨e0, e1, -⟩ := idx_facts t
  unfold iblk2
  rw [View.read_apply]
  show V c main_v59 _ = V c main_v59 _
  congr 1
  funext a
  apply Fin.ext
  match a with
  | ⟨0, _⟩ => show win2_0.index t (0 : Fin 2) * 10000 + 1 * p.val = 10000 * t.val + p.val; rw [e0]; omega
  | ⟨1, _⟩ => show win2_0.index t (1 : Fin 2) * 1 + 1 * k.val = k.val; rw [e1]; omega

/-- Row p of the degree column's block at point t is row 10000·t + p of the column. -/
theorem dblk_apply (c : Dev nD) (t : Fin cfg2.N) (p : Fin 10000) (k : Fin 1) :
    (iblk2 V c 2 t : Vec Ideal S10000x1 .f32) (ix2 p k)
      = (V c main_v67 : S100000x1.Idx → EReal) (ix2 ⟨10000 * t.val + p.val, by have := t_lt t; omega⟩ k) := by
  obtain ⟨-, -, -, -, e4, e5, -⟩ := idx_facts t
  unfold iblk2
  rw [View.read_apply]
  show V c main_v67 _ = V c main_v67 _
  congr 1
  funext a
  apply Fin.ext
  match a with
  | ⟨0, _⟩ => show win2_2.index t (0 : Fin 2) * 10000 + 1 * p.val = 10000 * t.val + p.val; rw [e4]; omega
  | ⟨1, _⟩ => show win2_2.index t (1 : Fin 2) * 1 + 1 * k.val = k.val; rw [e5]; omega

/-- The bias's block at any point is the bias. -/
theorem bblk_eq (c : Dev nD) (t : Fin cfg2.N) :
    (iblk2 V c 1 t : Vec Ideal S1x1 .f32) = (V c main_v66 : S1x1.Idx → EReal) := by
  obtain ⟨-, -, e2, e3, -⟩ := idx_facts t
  funext j
  unfold iblk2
  rw [View.read_apply]
  show V c main_v66 _ = V c main_v66 _
  congr 1
  funext a
  apply Fin.ext
  match a with
  | ⟨0, _⟩ => show win2_1.index t (0 : Fin 2) * 1 + 1 * (j 0).val = (j 0).val; rw [e2]; omega
  | ⟨1, _⟩ => show win2_1.index t (1 : Fin 2) * 1 + 1 * (j 1).val = (j 1).val; rw [e3]; omega

/-- What point t writes back is its block of rows of the score of the whole columns. -/
theorem flushed_eq (c : Dev nD) (t : Fin cfg2.N) :
    (dat2 V c).flushed 3 t = ((cfg2.win 3).blk t).view.read (Elt Ideal)
      (score (M := 100000) (V c main_v59) (V c main_v66) (V c main_v67)) := by
  obtain ⟨-, -, -, -, -, -, e6, e7⟩ := idx_facts t
  show (cfg2.win 3).cut (grid2.coords t) ((dat2 V c).after 3 t) = _
  rw [after2_3]
  unfold out2_3
  rw [View.canon_unit_zero hz]
  simp only [View.ld_unit_zero (S := S10000x1) hz, View.ld_unit_zero (S := S1x1) hz]
  rw [pay_eq, bblk_eq]
  funext j
  obtain ⟨p, q, rfl⟩ : ∃ (p : Fin 10000) (q : Fin 1), j = ix2 p q := ⟨j 0, j 1, eq_ix2 j⟩
  rw [View.read_apply]
  show score (M := 10000) (iblk2 V c 0 t) (V c main_v66) (iblk2 V c 2 t) (ix2 p q) = _
  rw [score_rows (M' := 100000) (V c main_v59) (V c main_v67) (iblk2 V c 0 t) (iblk2 V c 2 t) (V c main_v66)
    (fun p => ⟨10000 * t.val + p.val, by have := t_lt t; omega⟩) (fun p k => ablk_apply V c t p k) (fun p k => dblk_apply V c t p k) p q]
  congr 1
  funext a
  apply Fin.ext
  match a with
  | ⟨0, _⟩ => show 10000 * t.val + p.val = win2_3.index t (0 : Fin 2) * 10000 + 1 * p.val; rw [e6]; omega
  | ⟨1, _⟩ => show q.val = win2_3.index t (1 : Fin 2) * 1 + 1 * q.val; rw [e7]; omega

/-- The result array after the launch is the score of the whole columns. -/
theorem final (c : Dev nD) :
    (dat2 V c).arrAt 3 cfg2.N = score (M := 100000) (V c main_v59) (V c main_v66) (V c main_v67) :=
  (dat2 V c).arrAt_eq_of_cover 3 _ (fun t _ => flushed_eq V c t) fun i => by
    have hi : (i 0).val < 100000 := (i 0).isLt
    have hN : cfg2.N = 10 := N_2
    obtain ⟨t, ht⟩ : ∃ t : Fin cfg2.N, t.val = (i 0).val / 10000 := ⟨⟨(i 0).val / 10000, by omega⟩, rfl⟩
    refine ⟨t, flush2_3 t, ?_⟩
    obtain ⟨-, -, -, -, -, -, e6, e7⟩ := idx_facts t
    show i ∈ ((View.whole main_v68).slice (win2_3.rect t)).set
    rw [View.set_slice_whole, Rect.mem_set_unit]
    intro a
    match a with
    | ⟨0, _⟩ =>
      show win2_3.index t (0 : Fin 2) * 10000 ≤ (i 0).val ∧ (i 0).val < win2_3.index t (0 : Fin 2) * 10000 + 10000
      rw [e6, ht]; omega
    | ⟨1, _⟩ =>
      show win2_3.index t (1 : Fin 2) * 1 ≤ (i 1).val ∧ (i 1).val < win2_3.index t (1 : Fin 2) * 1 + 1
      rw [e7]; have h1 : (i 1).val < 1 := (i 1).isLt; omega

end Cert.KernelIdeal.Score

end
-- ==== Proof.HostFold.lean ====
/-
  The kernel program's result as one function of its arguments.

  The program's buffers are followed through its segments. Before the first launch the host computes the edge columns
  with self loops and every edge's normalisation; the first launch writes x · W1; the host aggregates its rows over the
  edges and lays the first bias out as a row; the second launch writes relu(· + b1) · W2; the host aggregates that column
  over the edges, computes the normalised out-degree column and lays the second bias out; the third launch writes the score;
  the host flattens the score column. Each host stretch is read first from ARBITRARY entry contents: what it writes as a
  function of what it reads, and which buffers it leaves alone. No segment writes a buffer an earlier one produced, so
  composing the stretches each stage reads what was computed for it.
-/
import proofs.«157544_j3994319585551_1_alg».proof.Proof.Gen.KernelIdeal.Frame
import proofs.«157544_j3994319585551_1_alg».proof.Proof.Stages
import proofs.«157544_j3994319585551_1_alg».proof.Proof.Region0
import proofs.«157544_j3994319585551_1_alg».proof.Proof.Region1
import proofs.«157544_j3994319585551_1_alg».proof.Proof.Region2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.Gcn Cert.Dense

/-- An operation's result read at its own buffer is its function of the operands' contents, and at any other buffer what
    was there before: applied operation by operation, also to the operands listed under a concatenation. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The kernel program's result: the flattened score of the twice aggregated features. -/
def value (x : (⟨S100000x128, .f32⟩ : BufTy).Contents (Elt Ideal)) (e : (⟨S2x3200000, .i32⟩ : BufTy).Contents (Elt Ideal))
    (w : (⟨S3200000, .f32⟩ : BufTy).Contents (Elt Ideal)) (W1 : (⟨S128x64, .f32⟩ : BufTy).Contents (Elt Ideal))
    (b1 : (⟨S64, .f32⟩ : BufTy).Contents (Elt Ideal)) (W2 : (⟨S64x1, .f32⟩ : BufTy).Contents (Elt Ideal))
    (b2 : (⟨S1, .f32⟩ : BufTy).Contents (Elt Ideal)) : (⟨S100000, .f32⟩ : BufTy).Contents (Elt Ideal) :=
  shapeCast S100000
    (Score.score (M := 100000)
      (agg1 (Hidden.layer (M := 100000) (K := 64) (N := 1) (agg64 (mm (M := 100000) (K := 128) (N := 64) x W1) e w)
        (shapeCast S1x64 b1 shapeCasts_S64_S1x64) W2) e w)
      (shapeCast S1x1 b2 shapeCasts_S1_S1x1)
      (shapeCast S100000x1 (degNorm e w) shapeCasts_S100000_S100000x1))
    shapeCasts_S100000x1_S100000

/-! ## The host stretches, from arbitrary entry contents -/

section Stretches

variable (V : Valuation τ sig (Elt Ideal))

/-- The first stretch: the edge columns, the weights with the self loops' ones, the degree's two readings. -/
theorem stretch0 (W : Valuation τ sig (Elt Ideal)) (hW : W = StableHlo.after hostOps0 V) :
    W (Proc.devRef .tc main_v1) = src (V (Proc.devRef .tc main_arg1))
    ∧ W (Proc.devRef .tc main_v5) = withLoops (src (V (Proc.devRef .tc main_arg1)))
    ∧ W (Proc.devRef .tc main_v6) = withLoops (dst (V (Proc.devRef .tc main_arg1)))
    ∧ W (Proc.devRef .tc main_v8) = wts (V (Proc.devRef .tc main_arg2))
    ∧ W (Proc.devRef .tc main_v13)
        = cmpf .ogt (deg (V (Proc.devRef .tc main_arg1)) (V (Proc.devRef .tc main_arg2))) (broadcastInDim S100000 ![] bcast_S_S100000 (constant (F := Ideal) S_ .f32 0x00000000#32))
    ∧ W (Proc.devRef .tc main_v14) = Host.rsqrt (deg (V (Proc.devRef .tc main_arg1)) (V (Proc.devRef .tc main_arg2)))
    ∧ W (Proc.devRef .tc main_cst_2) = constant (F := Ideal) S_ .f32 0x00000000#32
    ∧ W (Proc.devRef .tc main_arg0) = V (Proc.devRef .tc main_arg0)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5)
    ∧ W (Proc.devRef .tc main_arg6) = V (Proc.devRef .tc main_arg6) := by
  subst hW
  refine ⟨?_, ?_, ?_, ?_, ?_, ?_, ?_, ?_, ?_, ?_, ?_, ?_, ?_⟩ <;>
    (simp only [hostOps0]; after_results_simp) <;> (results_rw; try rfl)

/-- The called selection: the inverse square root where the degree is positive, the zero constant elsewhere. -/
theorem stretch1 (W : Valuation τ sig (Elt Ideal)) (hW : W = StableHlo.after hostOps0_1 V) :
    W (Proc.devRef .tc main_v15)
        = select (V (Proc.devRef .tc main_v13)) (V (Proc.devRef .tc main_v14)) (broadcastInDim S100000 ![] bcast_S_S100000 (id (V (Proc.devRef .tc main_cst_2))))
    ∧ W (Proc.devRef .tc main_v1) = V (Proc.devRef .tc main_v1)
    ∧ W (Proc.devRef .tc main_v5) = V (Proc.devRef .tc main_v5)
    ∧ W (Proc.devRef .tc main_v6) = V (Proc.devRef .tc main_v6)
    ∧ W (Proc.devRef .tc main_v8) = V (Proc.devRef .tc main_v8)
    ∧ W (Proc.devRef .tc main_arg0) = V (Proc.devRef .tc main_arg0)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5)
    ∧ W (Proc.devRef .tc main_arg6) = V (Proc.devRef .tc main_arg6) := by
  subst hW
  refine ⟨?_, ?_, ?_, ?_, ?_, ?_, ?_, ?_, ?_, ?_, ?_⟩ <;>
    (simp only [hostOps0_1]; after_results_simp) <;> (try rfl)

/-- The third stretch: every edge's normalisation from the inverse square roots and the weights. -/
theorem stretch2 (W : Valuation τ sig (Elt Ideal)) (hW : W = StableHlo.after hostOps0_2 V) :
    W (Proc.devRef .tc main_v31)
        = mulf (F := Ideal) (φ := .f32) (mulf (F := Ideal) (φ := .f32) (Host.gather gather_S100000_S3300000x1_S3300000_n_0_n_n_0_1_1 (V (Proc.devRef .tc main_v15)) (asCol (wrap (V (Proc.devRef .tc main_v5))))) (V (Proc.devRef .tc main_v8)))
            (Host.gather gather_S100000_S3300000x1_S3300000_n_0_n_n_0_1_1 (V (Proc.devRef .tc main_v15)) (asCol (wrap (V (Proc.devRef .tc main_v6)))))
    ∧ W (Proc.devRef .tc main_v1) = V (Proc.devRef .tc main_v1)
    ∧ W (Proc.devRef .tc main_v5) = V (Proc.devRef .tc main_v5)
    ∧ W (Proc.devRef .tc main_v6) = V (Proc.devRef .tc main_v6)
    ∧ W (Proc.devRef .tc main_arg0) = V (Proc.devRef .tc main_arg0)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5)
    ∧ W (Proc.devRef .tc main_arg6) = V (Proc.devRef .tc main_arg6) := by
  subst hW
  refine ⟨?_, ?_, ?_, ?_, ?_, ?_, ?_, ?_, ?_, ?_⟩ <;>
    (simp only [hostOps0_2]; after_results_simp) <;> (try rfl)

/-- The stretch between the first two launches: the first aggregation and the first bias as a row. -/
theorem stretch3 (W : Valuation τ sig (Elt Ideal)) (hW : W = StableHlo.after hostOps1 V) :
    W (Proc.devRef .tc main_v45)
        = Host.scatterAdd (F := Ideal) (φ := .f32) scatter_S100000x64_S3300000x1_S3300000x64_1_0_0_1
            (broadcastInDim S100000x64 ![] bcast_S_S100000x64 (constant (F := Ideal) S_ .f32 0x00000000#32)) (asCol (V (Proc.devRef .tc main_v6)))
            (mulf (Host.gather gather_S100000x64_S3300000x1_S3300000x64_1_0_n_n_0_1_164 (V (Proc.devRef .tc main_v32)) (asCol (wrap (V (Proc.devRef .tc main_v5)))))
              (broadcastInDim S3300000x64 ![0, 1] bcast_S3300000x1_S3300000x64_0_1
                (broadcastInDim S3300000x1 ![0] bcast_S3300000_S3300000x1_0 (V (Proc.devRef .tc main_v31)))))
    ∧ W (Proc.devRef .tc main_v46) = shapeCast S1x64 (V (Proc.devRef .tc main_arg4)) shapeCasts_S64_S1x64
    ∧ W (Proc.devRef .tc main_arg5) = V (Proc.devRef .tc main_arg5)
    ∧ W (Proc.devRef .tc main_v1) = V (Proc.devRef .tc main_v1)
    ∧ W (Proc.devRef .tc main_v5) = V (Proc.devRef .tc main_v5)
    ∧ W (Proc.devRef .tc main_v6) = V (Proc.devRef .tc main_v6)
    ∧ W (Proc.devRef .tc main_v31) = V (Proc.devRef .tc main_v31)
    ∧ W (Proc.devRef .tc main_arg2) = V (Proc.devRef .tc main_arg2)
    ∧ W (Proc.devRef .tc main_arg6) = V (Proc.devRef .tc main_arg6) := by
  subst hW
  refine ⟨?_, ?_, ?_, ?_, ?_, ?_, ?_, ?_, ?_⟩ <;>
    (simp only [hostOps1]; after_results_simp) <;> (try rfl)

/-- The stretch between the last two launches: the second aggregation, the second bias, the normalised out-degree column. -/
theorem stretch4 (W : Valuation τ sig (Elt Ideal)) (hW : W = StableHlo.after hostOps2 V) :
    W (Proc.devRef .tc main_v59)
        = Host.scatterAdd (F := Ideal) (φ := .f32) scatter_S100000x1_S3300000x1_S3300000x1_1_0_0_1
            (broadcastInDim S100000x1 ![] bcast_S_S100000x1 (constant (F := Ideal) S_ .f32 0x00000000#32)) (asCol (V (Proc.devRef .tc main_v6)))
            (mulf (Host.gather gather_S100000x1_S3300000x1_S3300000x1_1_0_n_n_0_1_11 (V (Proc.devRef .tc main_v47)) (asCol (wrap (V (Proc.devRef .tc main_v5)))))
              (broadcastInDim S3300000x1 ![0] bcast_S3300000_S3300000x1_0 (V (Proc.devRef .tc main_v31))))
    ∧ W (Proc.devRef .tc main_v66) = shapeCast S1x1 (V (Proc.devRef .tc main_arg6)) shapeCasts_S1_S1x1
    ∧ W (Proc.devRef .tc main_v67)
        = shapeCast S100000x1
            (Host.divf (F := Ideal) (φ := .f32)
              (Host.scatterAdd scatter_S100000_S3200000x1_S3200000_n_0_0_1
                (broadcastInDim S100000 ![] bcast_S_S100000 (constant (F := Ideal) S_ .f32 0x00000000#32))
                (broadcastInDim S3200000x1 ![0] bcast_S3200000_S3200000x1_0 (V (Proc.devRef .tc main_v1))) (V (Proc.devRef .tc main_arg2)))
              (broadcastInDim S100000 ![] bcast_S_S100000
                (Host.reduce FloatOps.maximumf
                  (Host.scatterAdd scatter_S100000_S3200000x1_S3200000_n_0_0_1
                    (broadcastInDim S100000 ![] bcast_S_S100000 (constant (F := Ideal) S_ .f32 0x00000000#32))
                    (broadcastInDim S3200000x1 ![0] bcast_S3200000_S3200000x1_0 (V (Proc.devRef .tc main_v1))) (V (Proc.devRef .tc main_arg2)))
                  (constant (F := Ideal) S_ .f32 0xFF800000#32) reducesTo_S100000_S_d0 h_S_)))
            shapeCasts_S100000_S100000x1 := by
  subst hW
  refine ⟨?_, ?_, ?_⟩ <;>
    (simp only [hostOps2]; after_results_simp) <;> (try rfl)

/-- The last stretch: the score column flattened. -/
theorem stretch5 (W : Valuation τ sig (Elt Ideal)) (hW : W = StableHlo.after hostOps3 V) :
    W (Proc.devRef .tc main_v69) = shapeCast S100000 (V (Proc.devRef .tc main_v68)) shapeCasts_S100000x1_S100000 := by
  subst hW
  simp only [hostOps3]; after_results_simp <;> rfl

end Stretches

variable (m : (ℓ : Loc nD τ sig) → Buf (Elt Ideal) ℓ) (ρ : Dev nD → PrngReg)

/-! ## Before the first launch -/

/-- What the first launch finds: the edge columns, the normalisation, and the arguments as launched. -/
theorem entry0 (c : Dev nD) :
    W3 m ρ c (Proc.devRef .tc main_v1) = src (m ((c : Thread nD τ).loc main_arg1))
    ∧ W3 m ρ c (Proc.devRef .tc main_v5) = withLoops (src (m ((c : Thread nD τ).loc main_arg1)))
    ∧ W3 m ρ c (Proc.devRef .tc main_v6) = withLoops (dst (m ((c : Thread nD τ).loc main_arg1)))
    ∧ W3 m ρ c (Proc.devRef .tc main_v31) = edgeNorm (m ((c : Thread nD τ).loc main_arg1)) (m ((c : Thread nD τ).loc main_arg2))
    ∧ W3 m ρ c (Proc.devRef .tc main_arg0) = (m ((c : Thread nD τ).loc main_arg0))
    ∧ W3 m ρ c (Proc.devRef .tc main_arg2) = (m ((c : Thread nD τ).loc main_arg2))
    ∧ W3 m ρ c (Proc.devRef .tc main_arg3) = (m ((c : Thread nD τ).loc main_arg3))
    ∧ W3 m ρ c (Proc.devRef .tc main_arg4) = (m ((c : Thread nD τ).loc main_arg4))
    ∧ W3 m ρ c (Proc.devRef .tc main_arg5) = (m ((c : Thread nD τ).loc main_arg5))
    ∧ W3 m ρ c (Proc.devRef .tc main_arg6) = (m ((c : Thread nD τ).loc main_arg6)) := by
  obtain ⟨p1, p5, p6, p8, p13, p14, pc, pa0, pa2, pa3, pa4, pa5, pa6⟩ := stretch0 (W0 m ρ c) (W1 m ρ c) rfl
  obtain ⟨q15, q1, q5, q6, q8, qa0, qa2, qa3, qa4, qa5, qa6⟩ := stretch1 (W1 m ρ c) (W2 m ρ c) rfl
  obtain ⟨r31, r1, r5, r6, ra0, ra2, ra3, ra4, ra5, ra6⟩ := stretch2 (W2 m ρ c) (W3 m ρ c) rfl
  refine ⟨r1.trans (q1.trans p1), r5.trans (q5.trans p5), r6.trans (q6.trans p6), ?_, ra0.trans (qa0.trans pa0),
    ra2.trans (qa2.trans pa2), ra3.trans (qa3.trans pa3), ra4.trans (qa4.trans pa4), ra5.trans (qa5.trans pa5),
    ra6.trans (qa6.trans pa6)⟩
  refine r31.trans ?_
  have h15 : W2 m ρ c (Proc.devRef .tc main_v15) = dinv (m ((c : Thread nD τ).loc main_arg1)) (m ((c : Thread nD τ).loc main_arg2)) := by
    refine q15.trans ?_
    show select (W1 m ρ c (Proc.devRef .tc main_v13)) (W1 m ρ c (Proc.devRef .tc main_v14)) (broadcastInDim S100000 ![] bcast_S_S100000 (id (W1 m ρ c (Proc.devRef .tc main_cst_2)))) = _
    rw [p13, p14, pc]
    rfl
  have h5 : W2 m ρ c (Proc.devRef .tc main_v5) = withLoops (src (m ((c : Thread nD τ).loc main_arg1))) := q5.trans p5
  have h6 : W2 m ρ c (Proc.devRef .tc main_v6) = withLoops (dst (m ((c : Thread nD τ).loc main_arg1))) := q6.trans p6
  have h8 : W2 m ρ c (Proc.devRef .tc main_v8) = wts (m ((c : Thread nD τ).loc main_arg2)) := q8.trans p8
  rw [h15, h5, h6, h8]
  rfl

/-! ## After the first launch -/

theorem exit0 (c : Dev nD) :
    W4 m ρ c (Proc.devRef .tc main_v32) = (mm (M := 100000) (K := 128) (N := 64) (m ((c : Thread nD τ).loc main_arg0)) (m ((c : Thread nD τ).loc main_arg3)))
    ∧ W4 m ρ c (Proc.devRef .tc main_v1) = src (m ((c : Thread nD τ).loc main_arg1))
    ∧ W4 m ρ c (Proc.devRef .tc main_v5) = withLoops (src (m ((c : Thread nD τ).loc main_arg1)))
    ∧ W4 m ρ c (Proc.devRef .tc main_v6) = withLoops (dst (m ((c : Thread nD τ).loc main_arg1)))
    ∧ W4 m ρ c (Proc.devRef .tc main_v31) = edgeNorm (m ((c : Thread nD τ).loc main_arg1)) (m ((c : Thread nD τ).loc main_arg2))
    ∧ W4 m ρ c (Proc.devRef .tc main_arg2) = (m ((c : Thread nD τ).loc main_arg2))
    ∧ W4 m ρ c (Proc.devRef .tc main_arg4) = (m ((c : Thread nD τ).loc main_arg4))
    ∧ W4 m ρ c (Proc.devRef .tc main_arg5) = (m ((c : Thread nD τ).loc main_arg5))
    ∧ W4 m ρ c (Proc.devRef .tc main_arg6) = (m ((c : Thread nD τ).loc main_arg6)) := by
  obtain ⟨h1, h5, h6, h31, a0, a2, a3, a4, a5, a6⟩ := entry0 m ρ c
  refine ⟨?_, (W4_of_ne m ρ c main_v1 (by decide)).trans h1, (W4_of_ne m ρ c main_v5 (by decide)).trans h5,
    (W4_of_ne m ρ c main_v6 (by decide)).trans h6, (W4_of_ne m ρ c main_v31 (by decide)).trans h31,
    (W4_of_ne m ρ c main_arg2 (by decide)).trans a2, (W4_of_ne m ρ c main_arg4 (by decide)).trans a4,
    (W4_of_ne m ρ c main_arg5 (by decide)).trans a5, (W4_of_ne m ρ c main_arg6 (by decide)).trans a6⟩
  refine (W4_arr m ρ c 2).trans ((Proj.final (V3 m ρ) c).trans ?_)
  show mm (M := 100000) (K := 128) (N := 64) (W3 m ρ c (Proc.devRef .tc main_arg0)) (W3 m ρ c (Proc.devRef .tc main_arg3)) = _
  rw [a0, a3]

/-! ## Before the second launch -/

theorem entry1 (c : Dev nD) :
    W5 m ρ c (Proc.devRef .tc main_v45) = agg64 (mm (M := 100000) (K := 128) (N := 64) (m ((c : Thread nD τ).loc main_arg0)) (m ((c : Thread nD τ).loc main_arg3))) (m ((c : Thread nD τ).loc main_arg1)) (m ((c : Thread nD τ).loc main_arg2))
    ∧ W5 m ρ c (Proc.devRef .tc main_v46) = shapeCast S1x64 (m ((c : Thread nD τ).loc main_arg4)) shapeCasts_S64_S1x64
    ∧ W5 m ρ c (Proc.devRef .tc main_arg5) = (m ((c : Thread nD τ).loc main_arg5))
    ∧ W5 m ρ c (Proc.devRef .tc main_v1) = src (m ((c : Thread nD τ).loc main_arg1))
    ∧ W5 m ρ c (Proc.devRef .tc main_v5) = withLoops (src (m ((c : Thread nD τ).loc main_arg1)))
    ∧ W5 m ρ c (Proc.devRef .tc main_v6) = withLoops (dst (m ((c : Thread nD τ).loc main_arg1)))
    ∧ W5 m ρ c (Proc.devRef .tc main_v31) = edgeNorm (m ((c : Thread nD τ).loc main_arg1)) (m ((c : Thread nD τ).loc main_arg2))
    ∧ W5 m ρ c (Proc.devRef .tc main_arg2) = (m ((c : Thread nD τ).loc main_arg2))
    ∧ W5 m ρ c (Proc.devRef .tc main_arg6) = (m ((c : Thread nD τ).loc main_arg6)) := by
  obtain ⟨h32, h1, h5, h6, h31, a2, a4, a5, a6⟩ := exit0 m ρ c
  obtain ⟨s45, s46, sa5, s1, s5, s6, s31, sa2, sa6⟩ := stretch3 (W4 m ρ c) (W5 m ρ c) rfl
  refine ⟨?_, ?_, sa5.trans a5, s1.trans h1, s5.trans h5, s6.trans h6, s31.trans h31, sa2.trans a2, sa6.trans a6⟩
  · refine s45.trans ?_
    rw [h6, h32, h5, h31]
    rfl
  · refine s46.trans ?_
    rw [a4]

/-! ## After the second launch -/

theorem exit1 (c : Dev nD) :
    W6 m ρ c (Proc.devRef .tc main_v47) = (Hidden.layer (M := 100000) (K := 64) (N := 1) (agg64 (mm (M := 100000) (K := 128) (N := 64) (m ((c : Thread nD τ).loc main_arg0)) (m ((c : Thread nD τ).loc main_arg3))) (m ((c : Thread nD τ).loc main_arg1)) (m ((c : Thread nD τ).loc main_arg2))) (shapeCast S1x64 (m ((c : Thread nD τ).loc main_arg4)) shapeCasts_S64_S1x64) (m ((c : Thread nD τ).loc main_arg5)))
    ∧ W6 m ρ c (Proc.devRef .tc main_v1) = src (m ((c : Thread nD τ).loc main_arg1))
    ∧ W6 m ρ c (Proc.devRef .tc main_v5) = withLoops (src (m ((c : Thread nD τ).loc main_arg1)))
    ∧ W6 m ρ c (Proc.devRef .tc main_v6) = withLoops (dst (m ((c : Thread nD τ).loc main_arg1)))
    ∧ W6 m ρ c (Proc.devRef .tc main_v31) = edgeNorm (m ((c : Thread nD τ).loc main_arg1)) (m ((c : Thread nD τ).loc main_arg2))
    ∧ W6 m ρ c (Proc.devRef .tc main_arg2) = (m ((c : Thread nD τ).loc main_arg2))
    ∧ W6 m ρ c (Proc.devRef .tc main_arg6) = (m ((c : Thread nD τ).loc main_arg6)) := by
  obtain ⟨h45, h46, a5, h1, h5, h6, h31, a2, a6⟩ := entry1 m ρ c
  refine ⟨?_, (W6_of_ne m ρ c main_v1 (by decide)).trans h1, (W6_of_ne m ρ c main_v5 (by decide)).trans h5,
    (W6_of_ne m ρ c main_v6 (by decide)).trans h6, (W6_of_ne m ρ c main_v31 (by decide)).trans h31,
    (W6_of_ne m ρ c main_arg2 (by decide)).trans a2, (W6_of_ne m ρ c main_arg6 (by decide)).trans a6⟩
  refine (W6_arr m ρ c 3).trans ((Hidden.final (V5 m ρ) c).trans ?_)
  show Hidden.layer (M := 100000) (K := 64) (N := 1) (W5 m ρ c (Proc.devRef .tc main_v45)) (W5 m ρ c (Proc.devRef .tc main_v46))
    (W5 m ρ c (Proc.devRef .tc main_arg5)) = _
  rw [h45, h46, a5]

/-! ## Before the third launch -/

theorem entry2 (c : Dev nD) :
    W7 m ρ c (Proc.devRef .tc main_v59) = agg1 (Hidden.layer (M := 100000) (K := 64) (N := 1) (agg64 (mm (M := 100000) (K := 128) (N := 64) (m ((c : Thread nD τ).loc main_arg0)) (m ((c : Thread nD τ).loc main_arg3))) (m ((c : Thread nD τ).loc main_arg1)) (m ((c : Thread nD τ).loc main_arg2))) (shapeCast S1x64 (m ((c : Thread nD τ).loc main_arg4)) shapeCasts_S64_S1x64) (m ((c : Thread nD τ).loc main_arg5))) (m ((c : Thread nD τ).loc main_arg1)) (m ((c : Thread nD τ).loc main_arg2))
    ∧ W7 m ρ c (Proc.devRef .tc main_v66) = shapeCast S1x1 (m ((c : Thread nD τ).loc main_arg6)) shapeCasts_S1_S1x1
    ∧ W7 m ρ c (Proc.devRef .tc main_v67) = shapeCast S100000x1 (degNorm (m ((c : Thread nD τ).loc main_arg1)) (m ((c : Thread nD τ).loc main_arg2))) shapeCasts_S100000_S100000x1 := by
  obtain ⟨h47, h1, h5, h6, h31, a2, a6⟩ := exit1 m ρ c
  obtain ⟨s59, s66, s67⟩ := stretch4 (W6 m ρ c) (W7 m ρ c) rfl
  refine ⟨?_, ?_, ?_⟩
  · refine s59.trans ?_
    rw [h6, h47, h5, h31]
    rfl
  · refine s66.trans ?_
    rw [a6]
  · refine s67.trans ?_
    rw [h1, a2]
    rfl

/-! ## The result -/

/-- The result buffer's final contents are `value` of the arguments as launched. -/
theorem result (c : Dev nD) :
    W9 m ρ c (Proc.devRef .tc main_v69)
      = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h59, h66, h67⟩ := entry2 m ρ c
  have h68 : W8 m ρ c (Proc.devRef .tc main_v68) = Score.score (M := 100000) (W7 m ρ c (Proc.devRef .tc main_v59))
      (W7 m ρ c (Proc.devRef .tc main_v66)) (W7 m ρ c (Proc.devRef .tc main_v67)) :=
    (W8_arr m ρ c 3).trans (Score.final (V7 m ρ) c)
  refine (stretch5 (W8 m ρ c) (W9 m ρ c) rfl).trans ?_
  rw [h68, h59, h66, h67]
  rfl

end Cert.KernelIdeal.Fold

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.Bridge.lean ====
/-
  The two programs compute one function.

  Both aggregate the same features over the same edges with the same normalisation, stage by stage: x · W1, its
  aggregation, the bias and the rectifier, the product with W2, its aggregation, the second bias, the logistic function,
  and the factor one plus the normalised out-degree. The kernel program computes the two products and the score in
  launches over blocks of rows, the reference on the whole arrays. A product into a zero accumulator and a general dot
  product with one contracted axis are the same sum at every entry; a bias laid out as a row by a cast or by two
  broadcasts is the same row; the logistic function is 1 / (1 + exp(-x)) by definition, the word 0x3F800000 denoting 1.
  No law of arithmetic beyond these readings is used, so the equality holds at every extended real.
-/
import proofs.«157544_j3994319585551_1_alg».proof.Proof.Gen.ReferenceIdeal.Run
import proofs.«157544_j3994319585551_1_alg».proof.Proof.HostFold
import proofs.«157544_j3994319585551_1_alg».proof.Proof.LibLiterals
import proofs.«157544_j3994319585551_1_alg».proof.Proof.LibColumn
import Idealize.ShloMosaic.PureOps.Ideal
import Idealize.ShloMosaic.PureOps.Ideal.Laws

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.Gcn Cert.Dense Cert.Layout

/-- A column cast to a vector, read at r: the column's entry (r, 0). -/
theorem cast_col_vec_apply {α : Type} {n : ℕ} (v : (⟨2, ![n, 1]⟩ : Shape).Idx → α) (h : (⟨2, ![n, 1]⟩ : Shape).ShapeCasts ⟨1, ![n]⟩) (r : Fin n) :
    shapeCast ⟨1, ![n]⟩ v h (ix1 r) = v (ix2 r (0 : Fin 1)) :=
  shapeCast_apply v h (ix1 r) (ix2 r (0 : Fin 1)) (by
    rw [Shape.rowMajor_val_two, Shape.rowMajor_val_one]
    show r.val * 1 + (0 : Fin 1).val = r.val
    simp)

/-- A row broadcast first to a one-row matrix and then over the rows, read at (p, q): the row's entry q. -/
theorem bias_rows_apply {α : Type} {M N : ℕ} (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The reference's result as the stages composed: the whole-array products, the shared aggregations, the host's
    spelling of the logistic function. -/
def refValue (x : (⟨S100000x128, .f32⟩ : BufTy).Contents (Elt Ideal)) (e : (⟨S2x3200000, .i32⟩ : BufTy).Contents (Elt Ideal))
    (w : (⟨S3200000, .f32⟩ : BufTy).Contents (Elt Ideal)) (W1 : (⟨S128x64, .f32⟩ : BufTy).Contents (Elt Ideal))
    (b1 : (⟨S64, .f32⟩ : BufTy).Contents (Elt Ideal)) (W2 : (⟨S64x1, .f32⟩ : BufTy).Contents (Elt Ideal))
    (b2 : (⟨S1, .f32⟩ : BufTy).Contents (Elt Ideal)) : (⟨S100000, .f32⟩ : BufTy).Contents (Elt Ideal) :=
  mulf
    (shapeCast S100000
      (Host.divf (broadcastInDim S100000x1 ![] bcast_S_S100000x1 (constant S_ .f32 0x3F800000#32))
        (addf (broadcastInDim S100000x1 ![] bcast_S_S100000x1 (constant S_ .f32 0x3F800000#32))
          (Host.exp (Host.negf
            (addf
              (agg1
                (Host.dotGeneral (φ₁ := .f32) (φ₂ := .f32) Cert.ReferenceIdeal.dot_S100000x64_S64x1_S100000x1_1_0_0_1_n_n none
                  (maximumf
                    (addf (agg64 (Host.dotGeneral (φ₁ := .f32) (φ₂ := .f32) Cert.ReferenceIdeal.dot_S100000x128_S128x64_S100000x64_1_0_0_1_n_n none x W1) e w)
                      (broadcastInDim S100000x64 ![0, 1] Cert.ReferenceIdeal.Gen.bcast_S1x64_S100000x64_0_1
                        (broadcastInDim S1x64 ![1] Cert.ReferenceIdeal.Gen.bcast_S64_S1x64_1 b1)))
                    (broadcastInDim S100000x64 ![] bcast_S_S100000x64 (constant S_ .f32 0x00000000#32)))
                  W2)
                e w)
              (broadcastInDim S100000x1 ![0, 1] Cert.ReferenceIdeal.Gen.bcast_S1x1_S100000x1_0_1
                (broadcastInDim S1x1 ![1] Cert.ReferenceIdeal.Gen.bcast_S1_S1x1_1 b2)))))))
      shapeCasts_S100000x1_S100000)
    (addf (broadcastInDim S100000 ![] bcast_S_S100000 (constant S_ .f32 0x3F800000#32)) (degNorm e w))

set_option maxHeartbeats 4000000 in
/-- The reference run's result term is `refValue` of its arguments: the same operations, in the same order. -/
theorem ref_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v109 (F := Ideal) m c
      = refValue (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.Value.res_main_v109 refValue agg1 agg64 degNorm outDeg edgeNorm dinv deg wrap asCol wts withLoops src dst
  rfl

/-- The hidden layer with the bias cast to a row is the host's product of the rectified biased features. -/
theorem layer_eq (A : (⟨S100000x64, .f32⟩ : BufTy).Contents (Elt Ideal)) (b1 : (⟨S64, .f32⟩ : BufTy).Contents (Elt Ideal))
    (W2 : (⟨S64x1, .f32⟩ : BufTy).Contents (Elt Ideal)) :
    Hidden.layer (M := 100000) (K := 64) (N := 1) A (shapeCast S1x64 b1 shapeCasts_S64_S1x64) W2
      = Host.dotGeneral (F := Ideal) (φ₁ := .f32) (φ₂ := .f32) Cert.ReferenceIdeal.dot_S100000x64_S64x1_S100000x1_1_0_0_1_n_n none
          (maximumf (F := Ideal)
            (addf (F := Ideal) A
              (broadcastInDim S100000x64 ![0, 1] Cert.ReferenceIdeal.Gen.bcast_S1x64_S100000x64_0_1
                (broadcastInDim S1x64 ![1] Cert.ReferenceIdeal.Gen.bcast_S64_S1x64_1 b1)))
            (broadcastInDim S100000x64 ![] bcast_S_S100000x64 (constant (F := Ideal) S_ .f32 0x00000000#32)))
          W2 := by
  refine Eq.symm ((dotGeneral_plain (M := 100000) (K := 64) (N := 1) _ W2).trans ?_)
  unfold Hidden.layer
  congr 1
  refine (maximumf_broadcastInDim_zero (M := 100000) (N := 64) _ _).trans ?_
  congr 1
  funext i
  obtain ⟨p, q, rfl⟩ : ∃ (p : Fin 100000) (q : Fin 64), i = ix2 p q := ⟨i 0, i 1, eq_ix2 i⟩
  show (A (ix2 p q) : EReal) + broadcastInDim S100000x64 ![0, 1] Cert.ReferenceIdeal.Gen.bcast_S1x64_S100000x64_0_1
      (broadcastInDim S1x64 ![1] Cert.ReferenceIdeal.Gen.bcast_S64_S1x64_1 b1) (ix2 p q)
    = A (ix2 p q) + shapeCast S1x64 b1 shapeCasts_S64_S1x64 (ix2 (0 : Fin 1) q)
  rw [bias_rows_apply (M := 100000) (N := 64) b1 _ _ p q, cast_vec_row_apply (n := 64) b1 _ q]

/-- The score column flattened is the host's flattened logistic column times one plus the degree column: entry r of
    either is the logistic function of P(r, 0) + b2 times 1 + d(r). -/
theorem final_eq (P : (⟨S100000x1, .f32⟩ : BufTy).Contents (Elt Ideal)) (b2 : (⟨S1, .f32⟩ : BufTy).Contents (Elt Ideal))
    (dn : (⟨S100000, .f32⟩ : BufTy).Contents (Elt Ideal)) :
    shapeCast S100000 (Score.score (M := 100000) P (shapeCast S1x1 b2 shapeCasts_S1_S1x1) (shapeCast S100000x1 dn shapeCasts_S100000_S100000x1))
        shapeCasts_S100000x1_S100000
      = mulf (F := Ideal) (φ := .f32)
          (shapeCast S100000 (Host.divf (F := Ideal) (φ := .f32) (broadcastInDim S100000x1 ![] bcast_S_S100000x1 (constant (F := Ideal) S_ .f32 0x3F800000#32))
            (addf (F := Ideal) (broadcastInDim S100000x1 ![] bcast_S_S100000x1 (constant (F := Ideal) S_ .f32 0x3F800000#32)) (Host.exp (F := Ideal) (Host.negf (F := Ideal) (addf (F := Ideal) P (broadcastInDim S100000x1 ![0, 1] Cert.ReferenceIdeal.Gen.bcast_S1x1_S100000x1_0_1 (broadcastInDim S1x1 ![1] Cert.ReferenceIdeal.Gen.bcast_S1_S1x1_1 b2)))))))
            shapeCasts_S100000x1_S100000)
          (addf (F := Ideal) (broadcastInDim S100000 ![] bcast_S_S100000 (constant (F := Ideal) S_ .f32 0x3F800000#32)) dn) := by
  funext i
  obtain ⟨r, rfl⟩ : ∃ r : Fin 100000, i = ix1 r := ⟨i 0, eq_ix1 i⟩
  have hl : shapeCast S100000 (Score.score (M := 100000) P (shapeCast S1x1 b2 shapeCasts_S1_S1x1) (shapeCast S100000x1 dn shapeCasts_S100000_S100000x1))
        shapeCasts_S100000x1_S100000 (ix1 r)
      = FloatOps.mulf (F := Ideal) (φ := .f32) (FloatOps.logistic (FloatOps.addf (P (ix2 r (0 : Fin 1))) (b2 (ix1 (0 : Fin 1)))))
          (FloatOps.addf (Ideal.ofBits .f32 0x3F800000#32) (dn (ix1 r))) := by
    rw [cast_col_vec_apply (n := 100000) _ _ r]
    unfold Score.score
    show FloatOps.mulf (F := Ideal) (φ := .f32)
        (FloatOps.logistic (FloatOps.addf (P (ix2 r (0 : Fin 1))) (shapeCast S1x1 b2 shapeCasts_S1_S1x1 (ix2 (0 : Fin 1) (0 : Fin 1)))))
        (FloatOps.addf (Ideal.ofBits .f32 0x3F800000#32) (shapeCast S100000x1 dn shapeCasts_S100000_S100000x1 (ix2 r (0 : Fin 1)))) = _
    rw [cast_vec_row_apply (n := 1) b2 _ (0 : Fin 1), cast_vec_col_apply (n := 100000) dn _ r (0 : Fin 1)]
  have hr : mulf (F := Ideal) (φ := .f32)
          (shapeCast S100000 (Host.divf (F := Ideal) (φ := .f32) (broadcastInDim S100000x1 ![] bcast_S_S100000x1 (constant (F := Ideal) S_ .f32 0x3F800000#32))
            (addf (F := Ideal) (broadcastInDim S100000x1 ![] bcast_S_S100000x1 (constant (F := Ideal) S_ .f32 0x3F800000#32)) (Host.exp (F := Ideal) (Host.negf (F := Ideal) (addf (F := Ideal) P (broadcastInDim S100000x1 ![0, 1] Cert.ReferenceIdeal.Gen.bcast_S1x1_S100000x1_0_1 (broadcastInDim S1x1 ![1] Cert.ReferenceIdeal.Gen.bcast_S1_S1x1_1 b2)))))))
            shapeCasts_S100000x1_S100000)
          (addf (F := Ideal) (broadcastInDim S100000 ![] bcast_S_S100000 (constant (F := Ideal) S_ .f32 0x3F800000#32)) dn) (ix1 r)
      = FloatOps.mulf (F := Ideal) (φ := .f32)
          (FloatOps.hostDivf (Ideal.ofBits .f32 0x3F800000#32) (FloatOps.addf (Ideal.ofBits .f32 0x3F800000#32)
            (FloatOps.hostUnary .exp (FloatOps.hostNegf (FloatOps.addf (P (ix2 r (0 : Fin 1))) (b2 (ix1 (0 : Fin 1))))))))
          (FloatOps.addf (Ideal.ofBits .f32 0x3F800000#32) (dn (ix1 r))) := by
    show FloatOps.mulf (F := Ideal) (φ := .f32)
        (shapeCast S100000 (Host.divf (F := Ideal) (φ := .f32) (broadcastInDim S100000x1 ![] bcast_S_S100000x1 (constant (F := Ideal) S_ .f32 0x3F800000#32))
            (addf (F := Ideal) (broadcastInDim S100000x1 ![] bcast_S_S100000x1 (constant (F := Ideal) S_ .f32 0x3F800000#32)) (Host.exp (F := Ideal) (Host.negf (F := Ideal) (addf (F := Ideal) P (broadcastInDim S100000x1 ![0, 1] Cert.ReferenceIdeal.Gen.bcast_S1x1_S100000x1_0_1 (broadcastInDim S1x1 ![1] Cert.ReferenceIdeal.Gen.bcast_S1_S1x1_1 b2)))))))
            shapeCasts_S100000x1_S100000 (ix1 r))
        (FloatOps.addf ((broadcastInDim S100000 ![] bcast_S_S100000 (constant (F := Ideal) S_ .f32 0x3F800000#32)) (ix1 r)) (dn (ix1 r))) = _
    rw [cast_col_vec_apply (n := 100000) _ _ r, bcast_scalar_apply (s := S100000) _ _ (ix1 r)]
    show FloatOps.mulf (F := Ideal) (φ := .f32)
        (FloatOps.hostDivf ((broadcastInDim S100000x1 ![] bcast_S_S100000x1 (constant (F := Ideal) S_ .f32 0x3F800000#32)) (ix2 r (0 : Fin 1))) (FloatOps.addf ((broadcastInDim S100000x1 ![] bcast_S_S100000x1 (constant (F := Ideal) S_ .f32 0x3F800000#32)) (ix2 r (0 : Fin 1)))
          (FloatOps.hostUnary .exp (FloatOps.hostNegf (FloatOps.addf (P (ix2 r (0 : Fin 1))) ((broadcastInDim S100000x1 ![0, 1] Cert.ReferenceIdeal.Gen.bcast_S1x1_S100000x1_0_1 (broadcastInDim S1x1 ![1] Cert.ReferenceIdeal.Gen.bcast_S1_S1x1_1 b2)) (ix2 r (0 : Fin 1))))))))
        (FloatOps.addf (Ideal.ofBits .f32 0x3F800000#32) (dn (ix1 r))) = _
    rw [bcast_scalar_apply (s := S100000x1) _ _ (ix2 r (0 : Fin 1)), bias_rows_apply (M := 100000) (N := 1) b2 _ _ r (0 : Fin 1)]
    rfl
  rw [hl, hr, Cert.LibLiterals.ofBits_f32_one]
  rfl

/-- The kernel program's value is the reference's. -/
theorem value_eq (x : (⟨S100000x128, .f32⟩ : BufTy).Contents (Elt Ideal)) (e : (⟨S2x3200000, .i32⟩ : BufTy).Contents (Elt Ideal))
    (w : (⟨S3200000, .f32⟩ : BufTy).Contents (Elt Ideal)) (W1 : (⟨S128x64, .f32⟩ : BufTy).Contents (Elt Ideal))
    (b1 : (⟨S64, .f32⟩ : BufTy).Contents (Elt Ideal)) (W2 : (⟨S64x1, .f32⟩ : BufTy).Contents (Elt Ideal))
    (b2 : (⟨S1, .f32⟩ : BufTy).Contents (Elt Ideal)) :
    Fold.value x e w W1 b1 W2 b2 = refValue x e w W1 b1 W2 b2 := by
  have h1 : mm (M := 100000) (K := 128) (N := 64) x W1
      = Host.dotGeneral (F := Ideal) (φ₁ := .f32) (φ₂ := .f32) Cert.ReferenceIdeal.dot_S100000x128_S128x64_S100000x64_1_0_0_1_n_n none x W1 :=
    (dotGeneral_plain (M := 100000) (K := 128) (N := 64) x W1).symm
  unfold Fold.value refValue
  rw [h1, layer_eq]
  exact final_eq _ b2 _

end Cert.Bridge

end
-- ==== Proof.lean ====
/-
  The certificate of a two-layer graph convolution with a degree-weighted sigmoid score.

  The kernel program computes, for 100000 nodes and 3200000 weighted edges: the projection x · W1 (first launch), its
  aggregation over the edges with one self loop per node and the symmetric degree normalisation (host), the bias,
  rectifier and second projection relu(· + b1) · W2 (second launch), the second aggregation (host), and
  sigmoid(· + b2) · (1 + d) with d the out-degree divided by its maximum (third launch). The reference computes the same
  stages on whole arrays. On the extended reals the two results are equal entry by entry: each launch's result array is
  the whole-array expression (its blocks of 10000 rows tile the array and an entry depends on its own row only), the
  host stages between the launches are the reference's operations on the same operands, and the logistic function is the
  reference's 1 / (1 + exp(-x)). The three frames are the programs' runs with the result forgotten; the idealisation
  rewrote nothing.
-/
import proofs.«157544_j3994319585551_1_alg».proof.Defs
import proofs.«157544_j3994319585551_1_alg».proof.Proof.Gen.Kernel
import proofs.«157544_j3994319585551_1_alg».proof.Proof.Gen.Kernel.Skeleton
import proofs.«157544_j3994319585551_1_alg».proof.Proof.Gen.Kernel.Launch
import proofs.«157544_j3994319585551_1_alg».proof.Proof.Gen.Kernel.Points
import proofs.«157544_j3994319585551_1_alg».proof.Proof.Gen.Kernel.Frame
import proofs.«157544_j3994319585551_1_alg».proof.Proof.Gen.KernelIdeal
import proofs.«157544_j3994319585551_1_alg».proof.Proof.Gen.KernelIdeal.Skeleton
import proofs.«157544_j3994319585551_1_alg».proof.Proof.Gen.KernelIdeal.Launch
import proofs.«157544_j3994319585551_1_alg».proof.Proof.Gen.KernelIdeal.Points
import proofs.«157544_j3994319585551_1_alg».proof.Proof.Gen.KernelIdeal.Frame
import proofs.«157544_j3994319585551_1_alg».proof.Proof.Gen.ReferenceIdeal
import proofs.«157544_j3994319585551_1_alg».proof.Proof.Gen.Pre_finite_inputs
import proofs.«157544_j3994319585551_1_alg».proof.Proof.Gen.ReferenceIdeal.Run
import proofs.«157544_j3994319585551_1_alg».proof.Proof.KernelRun
import proofs.«157544_j3994319585551_1_alg».proof.Proof.HostFold
import proofs.«157544_j3994319585551_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealised kernel program runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the same result array: the kernel program's
    at its value of the arguments, the reference's at its composed term, and the two are one function. -/
theorem algebraic : Cert.algebraic_KernelIdeal_ReferenceIdeal := by
  intro m ρ m' ρ' _ hagree
  refine ⟨fun c => Cert.KernelIdeal.Fold.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.Bridge.ref_eq, e0, e1, e2, e3, e4, e5, e6]
    exact (Cert.Bridge.value_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
